-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x128, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x128, .f32⟩
  | .hbm, ⟨112, _⟩ => ⟨S850000x1, .f32⟩
  | .hbm, ⟨113, _⟩ => ⟨S850000x128, .f32⟩
  | .hbm, ⟨114, _⟩ => ⟨S850000x128, .f32⟩
  | .hbm, ⟨115, _⟩ => ⟨S_, .f32⟩
  | .hbm, ⟨116, _⟩ => ⟨S50000x128, .f32⟩
  | .hbm, ⟨117, _⟩ => ⟨S850000x1, .i32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its result named.

  The program is eight segments in a row: three stretches of host operations, the first blocked product, two
  stretches, the second blocked product, one last stretch.  Every weakly fair execution runs them to the end; the
  contents of the unscoped buffers at each segment boundary are a fold through the segments from the launch memory,
  and the last fold, read at the result buffer, is what the result holds.  The arguments are read back through
  the fold to their launch contents.
-/
import proofs.«174491_j80324478369999_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, without a fault, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Spec.lean ====
/-
  The two-layer graph convolution as ONE function of the argument arrays.

  A layer takes node features `h` (50000 nodes, 128 features), the edge list `ei` (two rows of 800000 node
  numbers: sources and destinations) and a bias `b`.  Every node also gets a self loop, so the lists of
  sources and destinations have 850000 entries.  With `deg v` the number of list entries whose destination
  is `v`, and `dinv v = deg v ^ (-1/2)` where `deg v > 0` (and `0` elsewhere), the layer is

      (agg h ei b) v f  =  b f + ∑ over list entries e with dst e = v of  h (src e) f · dinv (src e) · dinv (dst e).

  The network is `agg (relu (agg (x · W1) ei b1) · W2) ei b2`, the two matrix products being over the 128
  features.  Gathering, scattering and the reciprocal square root are kept as the host operations both programs
  apply; only the matrix product is written out, as the sum over the contracted feature (`mmAt`), because that is
  where the two programs differ: one multiplies row blocks of 5000 nodes, the other the whole array at once.
-/
import proofs.«174491_j80324478369999_1_alg».proof.ReferenceIdeal
import Idealize.ShloMosaic.PureOps.Ideal
import Idealize.ShloMosaic.Lib.ValueIdx

noncomputable section

namespace Cert.GCN

open Idealize.ShloMosaic Idealize.ShloMosaic.ValueIdx Cert.ReferenceIdeal

variable [Cert.ReferenceIdeal.Facts]
open Cert.ReferenceIdeal.Facts₀ Cert.ReferenceIdeal.Facts

section Host

variable {F : FTy → Type} [FloatOps F]

/-- One row of the edge list (row 0: sources, row 1: destinations) followed by the node numbers 0 … 49999
    (the self loops). -/
def srcs (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

def dsts (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of node numbers as gather start indices: a negative number counts from the end (50000 is added). -/
def wrap (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The number of list entries arriving at each node: ones scattered and added at the destinations. -/
def deg (ei : (⟨S2x800000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 (dsts ei))
    (broadcastInDim S850000 ![] bcast_S_S850000 (constant S_ .f32 0x3F800000#32))

/-- `deg ^ (-1/2)` where the degree is positive, `0` elsewhere. -/
def dinv (ei : (⟨S2x800000, .i32⟩ : BufTy).Contents (Elt F)) : (⟨S50000, .f32⟩ : BufTy).Contents (Elt F) :=
  select (cmpf .ogt (deg ei) (broadcastInDim S50000 ![] bcast_S_S50000 (constant S_ .f32 0x00000000#32)))
    (Host.rsqrt (deg ei))
    (broadcastInDim S50000 ![] bcast_S_S50000 (constant S_ .f32 0x00000000#32))

/-- The weight of each list entry: `dinv` at its source times `dinv` at its destination. -/
def norm (ei : (⟨S2x800000, .i32⟩ : BufTy).Contents (Elt F)) : (⟨S850000, .f32⟩ : BufTy).Contents (Elt F) :=
  mulf (Host.gather gather_S50000_S850000x1_S850000_n_0_n_n_0_1_1 (dinv ei) (wrap (srcs ei)))
    (Host.gather gather_S50000_S850000x1_S850000_n_0_n_n_0_1_1 (dinv ei) (wrap (dsts ei)))

/-- One layer's aggregation from the list's sources `s`, destinations `d` and weights `nrm`: the rows of `h`
    at the sources, each times its entry's weight, added up at the destinations; then the bias on every row. -/
def aggOf (s d : (⟨S850000, .i32⟩ : BufTy).Contents (Elt F)) (nrm : (⟨S850000, .f32⟩ : BufTy).Contents (Elt F))
    (h : (⟨S50000x128, .f32⟩ : BufTy).Contents (Elt F)) (b : (⟨S128, .f32⟩ : BufTy).Contents (Elt F)) :
    (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32))
      (broadcastInDim S850000x1 ![0] bcast_S850000_S850000x1_0 d)
      (mulf (Host.gather gather_S50000x128_S850000x1_S850000x128_1_0_n_n_0_1_1128 h (wrap s))
        (broadcastInDim S850000x128 ![0, 1] bcast_S850000x1_S850000x128_0_1
          (broadcastInDim S850000x1 ![0] bcast_S850000_S850000x1_0 nrm))))
    (broadcastInDim S50000x128 ![0, 1] bcast_S1x128_S50000x128_0_1 (broadcastInDim S1x128 ![1] bcast_S128_S1x128_1 b))

/-- One layer's aggregation over the edge list `ei`. -/
def agg (h : (⟨S50000x128, .f32⟩ : BufTy).Contents (Elt F)) (ei : (⟨S2x800000, .i32⟩ : BufTy).Contents (Elt F))
    (b : (⟨S128, .f32⟩ : BufTy).Contents (Elt F)) : (⟨S50000x128, .f32⟩ : BufTy).Contents (Elt F) :=
  aggOf (srcs ei) (dsts ei) (norm ei) h b

/-- The positive part, entry by entry. -/
def relu (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

end Host

/-- Row `p` of `x` against column `q` of `w`: the sum over the 128 contracted features. -/
def mmAt (x : FVec Ideal S50000x128 .f32) (w : FVec Ideal S128x128 .f32) (p : Fin 50000) (q : Fin 128) : EReal :=
  ∑ k : Fin 128, x (ix2 p k) * w (ix2 k q)

/-- The matrix product `x · w` over the extended reals. -/
def mm (x : FVec Ideal S50000x128 .f32) (w : FVec Ideal S128x128 .f32) : FVec Ideal S50000x128 .f32 :=
  fun i => mmAt x w (i 0) (i 1)

theorem mm_apply (x : FVec Ideal S50000x128 .f32) (w : FVec Ideal S128x128 .f32) (p : Fin 50000) (q : Fin 128) :
    mm x w (ix2 p q) = mmAt x w p q := rfl

/-- The two-layer network. -/
def gcn (x : FVec Ideal S50000x128 .f32) (ei : (⟨S2x800000, .i32⟩ : BufTy).Contents (Elt Ideal))
    (w1 : FVec Ideal S128x128 .f32) (b1 : FVec Ideal S128 .f32) (w2 : FVec Ideal S128x128 .f32) (b2 : FVec Ideal S128 .f32) :
    FVec Ideal S50000x128 .f32 :=
  agg (mm (relu (agg (mm x w1) ei b1)) w2) ei b2

end Cert.GCN

end
-- ==== Proof.KernelHost.lean ====
/-
  The host operations of the kernel program, stretch by stretch, as functions of what they read.

  Between its two matrix products the program runs three stretches of host operations.  The first builds, from
  the edge list alone, the lists of sources and destinations (with the self loops) and the weight of every list
  entry.  The second takes the first product and aggregates it over the list, adds the first bias and takes the
  positive part: the second product's left operand.  The third aggregates the second product and adds the second
  bias: the result.  Each stretch writes only buffers of its own, so every array it does not write is still what
  it was.
-/
import proofs.«174491_j80324478369999_1_alg».proof.Proof.Gen.KernelIdeal.Launch
import proofs.«174491_j80324478369999_1_alg».proof.Proof.Gen.ReferenceIdeal
import proofs.«174491_j80324478369999_1_alg».proof.Proof.Spec
import Idealize.ShloMosaic.Lib.StableHlo.Run

noncomputable section

namespace Cert.KernelIdeal.Host

open Idealize.ShloMosaic Idealize.ShloMosaic.StableHlo Idealize.SL.Sem Cert.KernelIdeal Cert.KernelIdeal.Gen

variable {F : FTy → Type} [FloatOps F]

/-! ## Before the first product: the lists and the weights, from the edge list -/

theorem first_srcs (V : Valuation τ sig (Elt F)) :
    StableHlo.after hostOps0_2 (StableHlo.after hostOps0_1 (StableHlo.after hostOps0 V)) (Proc.devRef .tc main_v3) = Cert.GCN.srcs (V (Proc.devRef .tc main_arg1)) := by
  after_results
  rfl

theorem first_dsts (V : Valuation τ sig (Elt F)) :
    StableHlo.after hostOps0_2 (StableHlo.after hostOps0_1 (StableHlo.after hostOps0 V)) (Proc.devRef .tc main_v6) = Cert.GCN.dsts (V (Proc.devRef .tc main_arg1)) := by
  after_results
  rfl

theorem first_norm (V : Valuation τ sig (Elt F)) :
    StableHlo.after hostOps0_2 (StableHlo.after hostOps0_1 (StableHlo.after hostOps0 V)) (Proc.devRef .tc main_v29) = Cert.GCN.norm (V (Proc.devRef .tc main_arg1)) := by
  after_results_simp
  repeat (first
    | rw [nullary_result] | rw [unary_result] | rw [binary_result] | rw [reshape_result]
    | (rw [nullary_result_ne]; rotate_left; decide) | (rw [unary_result_ne]; rotate_left; decide)
    | (rw [binary_result_ne]; rotate_left; decide) | (rw [reshape_result_ne]; rotate_left; decide)
    | (rw [ternary_result_ne]; rotate_left; decide))
  rfl

theorem first_keeps_arg0 (V : Valuation τ sig (Elt F)) :
    StableHlo.after hostOps0_2 (StableHlo.after hostOps0_1 (StableHlo.after hostOps0 V)) (Proc.devRef .tc main_arg0) = V (Proc.devRef .tc main_arg0) := by
  after_results

theorem first_keeps_arg2 (V : Valuation τ sig (Elt F)) :
    StableHlo.after hostOps0_2 (StableHlo.after hostOps0_1 (StableHlo.after hostOps0 V)) (Proc.devRef .tc main_arg2) = V (Proc.devRef .tc main_arg2) := by
  after_results

theorem first_keeps_arg3 (V : Valuation τ sig (Elt F)) :
    StableHlo.after hostOps0_2 (StableHlo.after hostOps0_1 (StableHlo.after hostOps0 V)) (Proc.devRef .tc main_arg3) = V (Proc.devRef .tc main_arg3) := by
  after_results

theorem first_keeps_arg4 (V : Valuation τ sig (Elt F)) :
    StableHlo.after hostOps0_2 (StableHlo.after hostOps0_1 (StableHlo.after hostOps0 V)) (Proc.devRef .tc main_arg4) = V (Proc.devRef .tc main_arg4) := by
  after_results

theorem first_keeps_arg5 (V : Valuation τ sig (Elt F)) :
    StableHlo.after hostOps0_2 (StableHlo.after hostOps0_1 (StableHlo.after hostOps0 V)) (Proc.devRef .tc main_arg5) = V (Proc.devRef .tc main_arg5) := by
  after_results

/-! ## Between the products: aggregate, add the bias, take the positive part -/

theorem second_left (V : Valuation τ sig (Elt F)) :
    StableHlo.after hostOps1_1 (StableHlo.after hostOps1 V) (Proc.devRef .tc main_v47)
      = Cert.GCN.relu (Cert.GCN.aggOf (V (Proc.devRef .tc main_v3)) (V (Proc.devRef .tc main_v6)) (V (Proc.devRef .tc main_v29))
          (V (Proc.devRef .tc main_v30)) (V (Proc.devRef .tc main_arg3))) := by
  after_results_simp
  rfl

theorem second_keeps_v3 (V : Valuation τ sig (Elt F)) :
    StableHlo.after hostOps1_1 (StableHlo.after hostOps1 V) (Proc.devRef .tc main_v3) = V (Proc.devRef .tc main_v3) := by
  after_results

theorem second_keeps_v6 (V : Valuation τ sig (Elt F)) :
    StableHlo.after hostOps1_1 (StableHlo.after hostOps1 V) (Proc.devRef .tc main_v6) = V (Proc.devRef .tc main_v6) := by
  after_results

theorem second_keeps_v29 (V : Valuation τ sig (Elt F)) :
    StableHlo.after hostOps1_1 (StableHlo.after hostOps1 V) (Proc.devRef .tc main_v29) = V (Proc.devRef .tc main_v29) := by
  after_results

theorem second_keeps_arg4 (V : Valuation τ sig (Elt F)) :
    StableHlo.after hostOps1_1 (StableHlo.after hostOps1 V) (Proc.devRef .tc main_arg4) = V (Proc.devRef .tc main_arg4) := by
  after_results

theorem second_keeps_arg5 (V : Valuation τ sig (Elt F)) :
    StableHlo.after hostOps1_1 (StableHlo.after hostOps1 V) (Proc.devRef .tc main_arg5) = V (Proc.devRef .tc main_arg5) := by
  after_results

/-! ## After the second product: aggregate and add the bias -/

theorem third_result (V : Valuation τ sig (Elt F)) :
    StableHlo.after hostOps2 V (Proc.devRef .tc main_v64)
      = Cert.GCN.aggOf (V (Proc.devRef .tc main_v3)) (V (Proc.devRef .tc main_v6)) (V (Proc.devRef .tc main_v29))
          (V (Proc.devRef .tc main_v48)) (V (Proc.devRef .tc main_arg5)) := by
  after_results_simp
  rfl

end Cert.KernelIdeal.Host

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.KernelBlock.lean ====
/-
  One block of the blocked matrix product, entry by entry.

  Each grid point multiplies a block of 5000 rows of the left array by the whole 128 × 128 right array.  Over the
  extended reals the rounding of both operands to a shorter float format is the identity and the accumulator the
  product is added to is zero, so entry `(p, q)` of the block's result is `∑ k < 128, x (p, k) · w (k, q)`.
-/
import proofs.«174491_j80324478369999_1_alg».proof.Proof.Gen.KernelIdeal.Skeleton
import proofs.«174491_j80324478369999_1_alg».proof.Proof.LibContract
import Idealize.ShloMosaic.Lib.ValueIdx
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen

/-! The product's dimension numbers: the left operand is read at the result's row and the contraction index,
    the right operand at the contraction index and the result's column. -/

theorem lhs_row (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_col (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c

theorem rhs_row (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c

theorem rhs_col (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The result index `(p, q)` and the contraction index `k` are sent to the left operand's index `(p, k)` … -/
theorem lhs_at (p : Fin 5000) (q k : Fin 128) :
    dot_S5000x128_S128x128_S5000x128_1_0_0_1_n_n.lhsIdx (ix2 p q) ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  funext a
  refine Fin.ext ?_
  match a with
  | ⟨0, _⟩ => exact lhs_row _ _
  | ⟨1, _⟩ => exact (lhs_col _ _).trans hk

/-- … and to the right operand's index `(k, q)`. -/
theorem rhs_at (p : Fin 5000) (q k : Fin 128) :
    dot_S5000x128_S128x128_S5000x128_1_0_0_1_n_n.rhsIdx (ix2 p q) ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  funext a
  refine Fin.ext ?_
  match a with
  | ⟨0, _⟩ => exact (rhs_row _ _).trans hk
  | ⟨1, _⟩ => exact rhs_col _ _

/-- Entry `(p, q)` of a block's product into the zero accumulator. -/
theorem product_at (x : FVec Ideal S5000x128 .bf16) (w : FVec Ideal S128x128 .bf16) (p : Fin 5000) (q : Fin 128) :
    matmul dot_S5000x128_S128x128_S5000x128_1_0_0_1_n_n none x w (constant S5000x128 .f32 0x00000000#32) (ix2 p q)
      = ∑ k : Fin 128, x (ix2 p k) * w (ix2 k q) :=
  Cert.LibContract.matmul_zero_single dot_S5000x128_S128x128_S5000x128_1_0_0_1_n_n none 128 rfl rfl x w (ix2 p q)
    (fun k => ix2 p k) (fun k => ix2 k q) (lhs_at p q) (rhs_at p q)

/-- What the first kernel's body stores, at entry `(p, q)` of its block. -/
theorem pay0_at (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact product_at _ _ p q

/-- What the second kernel's body stores, at entry `(p, q)` of its block (its left operand passes through a
    reshape to its own shape first: the identity). -/
theorem pay1_at (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  simp only [shapeCast_self]
  exact product_at _ _ p q

end Cert.KernelIdeal.Block

end
-- ==== Proof.KernelRegion0.lean ====
/-
  The first blocked matrix product of the kernel program, read as one whole array.

  The left array has 50000 rows and 128 columns; the right array is 128 × 128.  The grid has ten points.  Point `t`
  takes rows `5000·t … 5000·t + 4999` of the left array (a block of 5000 rows, all 128 columns) and the whole right
  array, and writes back rows `5000·t … 5000·t + 4999` of the output.  Entry `(p, q)` of what it writes is
  `∑ k < 128, x (p, k) · w (k, q)` over the block's rows, that is row `5000·t + p` of the left array against column
  `q` of the right array: exactly entry `(5000·t + p, q)` of the matrix product of the two whole arrays.  Every row
  `r < 50000` lies in the block of point `r / 5000 < 10`, and every point writes its block back, so the ten blocks
  tile the output and after the region the output array is the matrix product of the two input arrays as the region
  found them.
-/
import proofs.«174491_j80324478369999_1_alg».proof.Proof.Gen.KernelIdeal.Frame
import proofs.«174491_j80324478369999_1_alg».proof.Proof.KernelBlock
import proofs.«174491_j80324478369999_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

section Blocks

-- the arrays as the region finds them
variable (V : (c : Dev nD) → (b : Ref sig .tc) → Buf (Elt Ideal) ((c : Thread nD τ).loc b))

/-- The body's one store starts at the origin of its block. -/
theorem hz : (![0, 0] : Fin 2 → Nat) = fun _ => 0 := funext fun a => by fin_cases a <;> rfl

/-- The block numbers at point `t`, decided over the ten points: the left array's row block is the output's, which is
    block `t`; the right array's block is always `(0, 0)`; no window moves along the columns. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Entry `(p, k)` of the left block at point `t` is the left array at the row where the output's block puts `p`,
    column `k`. -/
theorem left_at (c : Dev nD) (t : Fin cfg0.N) (p : Fin 5000) (q k : Fin 128) :
    iblk0 V c 0 t (ix2 p k) = V c main_arg0 (ix2 (((cfg0.win 2).blk t).view.emb (ix2 p q) 0) k) := by
  show V c main_arg0 (((cfg0.win 0).blk t).view.emb (ix2 p k)) = _
  refine congrArg (V c main_arg0) ?_
  obtain ⟨e0, e1, e2, e3, e4, e5⟩ := idx_facts t
  funext a; apply Fin.ext
  match a with
  | ⟨0, _⟩ => show win0_0.index t (0 : Fin 2) * 5000 + 1 * p.val = win0_2.index t (0 : Fin 2) * 5000 + 1 * p.val; omega
  | ⟨1, _⟩ => show win0_0.index t (1 : Fin 2) * 128 + 1 * k.val = k.val; omega

/-- Entry `(k, q)` of the right block at any point is the right array at row `k` and the column where the output's
    block puts `q`. -/
theorem right_at (c : Dev nD) (t : Fin cfg0.N) (p : Fin 5000) (q k : Fin 128) :
    iblk0 V c 1 t (ix2 k q) = V c main_arg2 (ix2 k (((cfg0.win 2).blk t).view.emb (ix2 p q) 1)) := by
  show V c main_arg2 (((cfg0.win 1).blk t).view.emb (ix2 k q)) = _
  refine congrArg (V c main_arg2) ?_
  obtain ⟨e0, e1, e2, e3, e4, e5⟩ := idx_facts t
  funext a; apply Fin.ext
  match a with
  | ⟨0, _⟩ => show win0_1.index t (0 : Fin 2) * 128 + 1 * k.val = k.val; omega
  | ⟨1, _⟩ => show win0_1.index t (1 : Fin 2) * 128 + 1 * q.val = win0_2.index t (1 : Fin 2) * 128 + 1 * q.val; omega

/-- What point `t` writes back is block `t` of the matrix product of the two whole arrays. -/
theorem flushed_eq (c : Dev nD) (t : Fin cfg0.N) :
    (dat0 V c).flushed 2 t = ((cfg0.win 2).blk t).view.read (Elt Ideal) (Cert.GCN.mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (Cert.KernelIdeal.Block.pay0_at (iblk0 V c 0 t) (iblk0 V c 1 t) p q).trans ?_
  show _ = Cert.GCN.mmAt (V c main_arg0) (V c main_arg2) (((cfg0.win 2).blk t).view.emb (ix2 p q) 0) (((cfg0.win 2).blk t).view.emb (ix2 p q) 1)
  unfold Cert.GCN.mmAt
  exact Finset.sum_congr rfl fun k _ => congrArg₂ (fun (a b : EReal) => a * b) (left_at V c t p q k) (right_at V c t p q k)

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The blocks tile the output: row `r` is in the block of point `r / 5000`, which is written back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show _ < grid0.N; rw [N_0]; omega⟩, rfl⟩
  refine ⟨t, flush0_2 t, ?_⟩
  rw [mem_blk]
  obtain ⟨e0, e1, e2, e3, e4, e5⟩ := idx_facts t
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Blocks

/-- After the region the output array is the matrix product of the two input arrays as the region found them. -/
theorem array (V : (c : Dev nD) → (b : Ref sig .tc) → Buf (Elt Ideal) ((c : Thread nD τ).loc b)) (c : Dev nD) :
    (Cert.KernelIdeal.Gen.dat0 (F := Ideal) V c).arrAt 2 cfg0.N = Cert.GCN.mm (V c main_arg0) (V c main_arg2) :=
  (dat0 V c).arrAt_eq_of_cover 2 _ (fun t _ => flushed_eq V c t) cover

end Cert.KernelIdeal.Region0

end
-- ==== Proof.KernelRegion1.lean ====
/-
  The second blocked matrix product of the kernel program, read as one whole array.

  The left array has 50000 rows and 128 columns; the right array is 128 × 128.  The grid has ten points.  Point `t`
  takes rows `5000·t … 5000·t + 4999` of the left array (a block of 5000 rows, all 128 columns) and the whole right
  array, and writes back rows `5000·t … 5000·t + 4999` of the output.  Entry `(p, q)` of what it writes is
  `∑ k < 128, x (p, k) · w (k, q)` over the block's rows, that is row `5000·t + p` of the left array against column
  `q` of the right array: exactly entry `(5000·t + p, q)` of the matrix product of the two whole arrays.  Every row
  `r < 50000` lies in the block of point `r / 5000 < 10`, and every point writes its block back, so the ten blocks
  tile the output and after the region the output array is the matrix product of the two input arrays as the region
  found them.
-/
import proofs.«174491_j80324478369999_1_alg».proof.Proof.Gen.KernelIdeal.Frame
import proofs.«174491_j80324478369999_1_alg».proof.Proof.KernelBlock
import proofs.«174491_j80324478369999_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

section Blocks

-- the arrays as the region finds them
variable (V : (c : Dev nD) → (b : Ref sig .tc) → Buf (Elt Ideal) ((c : Thread nD τ).loc b))

/-- The body's one store starts at the origin of its block. -/
theorem hz : (![0, 0] : Fin 2 → Nat) = fun _ => 0 := funext fun a => by fin_cases a <;> rfl

/-- The block numbers at point `t`, decided over the ten points: the left array's row block is the output's, which is
    block `t`; the right array's block is always `(0, 0)`; no window moves along the columns. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- Entry `(p, k)` of the left block at point `t` is the left array at the row where the output's block puts `p`,
    column `k`. -/
theorem left_at (c : Dev nD) (t : Fin cfg1.N) (p : Fin 5000) (q k : Fin 128) :
    iblk1 V c 0 t (ix2 p k) = V c main_v47 (ix2 (((cfg1.win 2).blk t).view.emb (ix2 p q) 0) k) := by
  show V c main_v47 (((cfg1.win 0).blk t).view.emb (ix2 p k)) = _
  refine congrArg (V c main_v47) ?_
  obtain ⟨e0, e1, e2, e3, e4, e5⟩ := idx_facts t
  funext a; apply Fin.ext
  match a with
  | ⟨0, _⟩ => show win1_0.index t (0 : Fin 2) * 5000 + 1 * p.val = win1_2.index t (0 : Fin 2) * 5000 + 1 * p.val; omega
  | ⟨1, _⟩ => show win1_0.index t (1 : Fin 2) * 128 + 1 * k.val = k.val; omega

/-- Entry `(k, q)` of the right block at any point is the right array at row `k` and the column where the output's
    block puts `q`. -/
theorem right_at (c : Dev nD) (t : Fin cfg1.N) (p : Fin 5000) (q k : Fin 128) :
    iblk1 V c 1 t (ix2 k q) = V c main_arg4 (ix2 k (((cfg1.win 2).blk t).view.emb (ix2 p q) 1)) := by
  show V c main_arg4 (((cfg1.win 1).blk t).view.emb (ix2 k q)) = _
  refine congrArg (V c main_arg4) ?_
  obtain ⟨e0, e1, e2, e3, e4, e5⟩ := idx_facts t
  funext a; apply Fin.ext
  match a with
  | ⟨0, _⟩ => show win1_1.index t (0 : Fin 2) * 128 + 1 * k.val = k.val; omega
  | ⟨1, _⟩ => show win1_1.index t (1 : Fin 2) * 128 + 1 * q.val = win1_2.index t (1 : Fin 2) * 128 + 1 * q.val; omega

/-- What point `t` writes back is block `t` of the matrix product of the two whole arrays. -/
theorem flushed_eq (c : Dev nD) (t : Fin cfg1.N) :
    (dat1 V c).flushed 2 t = ((cfg1.win 2).blk t).view.read (Elt Ideal) (Cert.GCN.mm (V c main_v47) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  refine (Cert.KernelIdeal.Block.pay1_at (iblk1 V c 0 t) (iblk1 V c 1 t) p q).trans ?_
  show _ = Cert.GCN.mmAt (V c main_v47) (V c main_arg4) (((cfg1.win 2).blk t).view.emb (ix2 p q) 0) (((cfg1.win 2).blk t).view.emb (ix2 p q) 1)
  unfold Cert.GCN.mmAt
  exact Finset.sum_congr rfl fun k _ => congrArg₂ (fun (a b : EReal) => a * b) (left_at V c t p q k) (right_at V c t p q k)

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The blocks tile the output: row `r` is in the block of point `r / 5000`, which is written back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  refine ⟨t, flush1_2 t, ?_⟩
  rw [mem_blk]
  obtain ⟨e0, e1, e2, e3, e4, e5⟩ := idx_facts t
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

end Blocks

/-- After the region the output array is the matrix product of the two input arrays as the region found them. -/
theorem array (V : (c : Dev nD) → (b : Ref sig .tc) → Buf (Elt Ideal) ((c : Thread nD τ).loc b)) (c : Dev nD) :
    (Cert.KernelIdeal.Gen.dat1 (F := Ideal) V c).arrAt 2 cfg1.N = Cert.GCN.mm (V c main_v47) (V c main_arg4) :=
  (dat1 V c).arrAt_eq_of_cover 2 _ (fun t _ => flushed_eq V c t) cover

end Cert.KernelIdeal.Region1

end
-- ==== Proof.KernelResult.lean ====
/-
  What the kernel program's result buffer holds: the two-layer network of the argument arrays.

  The contents of the buffers at the segment boundaries are followed from the launch to the return.  The first
  stretches leave the lists and the weights, functions of the edge list alone.  The first product leaves
  `x · W1` in its output array and nothing else changed; the next stretches turn it into
  `relu (agg (x · W1) ei b1)`, the second product's left operand; the second product leaves that times `W2`;
  the last stretch aggregates it and adds `b2`.  The lists and weights the two layers use are the same buffers,
  written once.
-/
import proofs.«174491_j80324478369999_1_alg».proof.Proof.Gen.KernelIdeal.Frame
import proofs.«174491_j80324478369999_1_alg».proof.Proof.KernelHost
import proofs.«174491_j80324478369999_1_alg».proof.Proof.KernelRegion0
import proofs.«174491_j80324478369999_1_alg».proof.Proof.KernelRegion1
import proofs.«174491_j80324478369999_1_alg».proof.Proof.Spec

noncomputable section

namespace Cert.KernelIdeal.Result

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-! ## At the first product's entry -/

theorem srcs3 (c : Dev nD) : W3 m ρ c (Proc.devRef .tc main_v3) = Cert.GCN.srcs (m ((c.tc : Thread nD τ).loc main_arg1)) :=
  Host.first_srcs (W0 m ρ c)
theorem dsts3 (c : Dev nD) : W3 m ρ c (Proc.devRef .tc main_v6) = Cert.GCN.dsts (m ((c.tc : Thread nD τ).loc main_arg1)) :=
  Host.first_dsts (W0 m ρ c)
theorem norm3 (c : Dev nD) : W3 m ρ c (Proc.devRef .tc main_v29) = Cert.GCN.norm (m ((c.tc : Thread nD τ).loc main_arg1)) :=
  Host.first_norm (W0 m ρ c)
theorem arg03 (c : Dev nD) : W3 m ρ c (Proc.devRef .tc main_arg0) = m ((c.tc : Thread nD τ).loc main_arg0) :=
  Host.first_keeps_arg0 (W0 m ρ c)
theorem arg23 (c : Dev nD) : W3 m ρ c (Proc.devRef .tc main_arg2) = m ((c.tc : Thread nD τ).loc main_arg2) :=
  Host.first_keeps_arg2 (W0 m ρ c)
theorem arg33 (c : Dev nD) : W3 m ρ c (Proc.devRef .tc main_arg3) = m ((c.tc : Thread nD τ).loc main_arg3) :=
  Host.first_keeps_arg3 (W0 m ρ c)
theorem arg43 (c : Dev nD) : W3 m ρ c (Proc.devRef .tc main_arg4) = m ((c.tc : Thread nD τ).loc main_arg4) :=
  Host.first_keeps_arg4 (W0 m ρ c)
theorem arg53 (c : Dev nD) : W3 m ρ c (Proc.devRef .tc main_arg5) = m ((c.tc : Thread nD τ).loc main_arg5) :=
  Host.first_keeps_arg5 (W0 m ρ c)

/-! ## At the first product's exit: its output array holds `x · W1`, every other buffer what it held -/

theorem prod4 (c : Dev nD) : W4 m ρ c (Proc.devRef .tc main_v30) = Cert.GCN.mm (m ((c.tc : Thread nD τ).loc main_arg0)) (m ((c.tc : Thread nD τ).loc main_arg2)) :=
  (W4_arr m ρ c 2).trans ((Region0.array (V3 m ρ) c).trans (congrArg₂ Cert.GCN.mm (arg03 m ρ c) (arg23 m ρ c)))
theorem srcs4 (c : Dev nD) : W4 m ρ c (Proc.devRef .tc main_v3) = Cert.GCN.srcs (m ((c.tc : Thread nD τ).loc main_arg1)) :=
  (W4_of_ne m ρ c main_v3 (by decide)).trans (srcs3 m ρ c)
theorem dsts4 (c : Dev nD) : W4 m ρ c (Proc.devRef .tc main_v6) = Cert.GCN.dsts (m ((c.tc : Thread nD τ).loc main_arg1)) :=
  (W4_of_ne m ρ c main_v6 (by decide)).trans (dsts3 m ρ c)
theorem norm4 (c : Dev nD) : W4 m ρ c (Proc.devRef .tc main_v29) = Cert.GCN.norm (m ((c.tc : Thread nD τ).loc main_arg1)) :=
  (W4_of_ne m ρ c main_v29 (by decide)).trans (norm3 m ρ c)
theorem arg34 (c : Dev nD) : W4 m ρ c (Proc.devRef .tc main_arg3) = m ((c.tc : Thread nD τ).loc main_arg3) :=
  (W4_of_ne m ρ c main_arg3 (by decide)).trans (arg33 m ρ c)
theorem arg44 (c : Dev nD) : W4 m ρ c (Proc.devRef .tc main_arg4) = m ((c.tc : Thread nD τ).loc main_arg4) :=
  (W4_of_ne m ρ c main_arg4 (by decide)).trans (arg43 m ρ c)
theorem arg54 (c : Dev nD) : W4 m ρ c (Proc.devRef .tc main_arg5) = m ((c.tc : Thread nD τ).loc main_arg5) :=
  (W4_of_ne m ρ c main_arg5 (by decide)).trans (arg53 m ρ c)

/-! ## At the second product's entry -/

theorem left6 (c : Dev nD) : W6 m ρ c (Proc.devRef .tc main_v47)
    = Cert.GCN.relu (Cert.GCN.agg (Cert.GCN.mm (m ((c.tc : Thread nD τ).loc main_arg0)) (m ((c.tc : Thread nD τ).loc main_arg2))) (m ((c.tc : Thread nD τ).loc main_arg1)) (m ((c.tc : Thread nD τ).loc main_arg3))) := by
  refine (Host.second_left (W4 m ρ c)).trans ?_
  rw [srcs4 m ρ c, dsts4 m ρ c, norm4 m ρ c, prod4 m ρ c, arg34 m ρ c]
  rfl
theorem srcs6 (c : Dev nD) : W6 m ρ c (Proc.devRef .tc main_v3) = Cert.GCN.srcs (m ((c.tc : Thread nD τ).loc main_arg1)) :=
  (Host.second_keeps_v3 (W4 m ρ c)).trans (srcs4 m ρ c)
theorem dsts6 (c : Dev nD) : W6 m ρ c (Proc.devRef .tc main_v6) = Cert.GCN.dsts (m ((c.tc : Thread nD τ).loc main_arg1)) :=
  (Host.second_keeps_v6 (W4 m ρ c)).trans (dsts4 m ρ c)
theorem norm6 (c : Dev nD) : W6 m ρ c (Proc.devRef .tc main_v29) = Cert.GCN.norm (m ((c.tc : Thread nD τ).loc main_arg1)) :=
  (Host.second_keeps_v29 (W4 m ρ c)).trans (norm4 m ρ c)
theorem arg46 (c : Dev nD) : W6 m ρ c (Proc.devRef .tc main_arg4) = m ((c.tc : Thread nD τ).loc main_arg4) :=
  (Host.second_keeps_arg4 (W4 m ρ c)).trans (arg44 m ρ c)
theorem arg56 (c : Dev nD) : W6 m ρ c (Proc.devRef .tc main_arg5) = m ((c.tc : Thread nD τ).loc main_arg5) :=
  (Host.second_keeps_arg5 (W4 m ρ c)).trans (arg54 m ρ c)

/-! ## At the second product's exit -/

theorem prod7 (c : Dev nD) : W7 m ρ c (Proc.devRef .tc main_v48)
    = Cert.GCN.mm (Cert.GCN.relu (Cert.GCN.agg (Cert.GCN.mm (m ((c.tc : Thread nD τ).loc main_arg0)) (m ((c.tc : Thread nD τ).loc main_arg2))) (m ((c.tc : Thread nD τ).loc main_arg1)) (m ((c.tc : Thread nD τ).loc main_arg3)))) (m ((c.tc : Thread nD τ).loc main_arg4)) :=
  (W7_arr m ρ c 2).trans ((Region1.array (V6 m ρ) c).trans (congrArg₂ Cert.GCN.mm (left6 m ρ c) (arg46 m ρ c)))
theorem srcs7 (c : Dev nD) : W7 m ρ c (Proc.devRef .tc main_v3) = Cert.GCN.srcs (m ((c.tc : Thread nD τ).loc main_arg1)) :=
  (W7_of_ne m ρ c main_v3 (by decide)).trans (srcs6 m ρ c)
theorem dsts7 (c : Dev nD) : W7 m ρ c (Proc.devRef .tc main_v6) = Cert.GCN.dsts (m ((c.tc : Thread nD τ).loc main_arg1)) :=
  (W7_of_ne m ρ c main_v6 (by decide)).trans (dsts6 m ρ c)
theorem norm7 (c : Dev nD) : W7 m ρ c (Proc.devRef .tc main_v29) = Cert.GCN.norm (m ((c.tc : Thread nD τ).loc main_arg1)) :=
  (W7_of_ne m ρ c main_v29 (by decide)).trans (norm6 m ρ c)
theorem arg57 (c : Dev nD) : W7 m ρ c (Proc.devRef .tc main_arg5) = m ((c.tc : Thread nD τ).loc main_arg5) :=
  (W7_of_ne m ρ c main_arg5 (by decide)).trans (arg56 m ρ c)

/-! ## At the return -/

/-- The result buffer ends at the two-layer network of the argument arrays. -/
theorem result_eq (c : Dev nD) : W8 m ρ c (Proc.devRef .tc main_v64)
    = Cert.GCN.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (Host.third_result (W7 m ρ c)).trans ?_
  rw [srcs7 m ρ c, dsts7 m ρ c, norm7 m ρ c, prod7 m ρ c, arg57 m ρ c]
  rfl

end Cert.KernelIdeal.Result

end
-- ==== Proof.RefValue.lean ====
/-
  What the reference program's result holds: the two-layer network of the argument arrays.

  The reference applies the same host operations as the network's definition, computing the lists and the weights
  once per layer from the same edge list, and takes each matrix product as ONE product of whole arrays.  Over the
  extended reals that product, read at entry `(p, q)`, is the sum over the contracted feature of row `p` against
  column `q`: the network's `mm`.
-/
import proofs.«174491_j80324478369999_1_alg».proof.Proof.RefRun
import proofs.«174491_j80324478369999_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.TcCoe Idealize.SL.Sem
open Cert.ReferenceIdeal Cert.ReferenceIdeal.Gen

/-! The product's dimension numbers: the left operand is read at the result's row and the contraction index,
    the right operand at the contraction index and the result's column. -/

theorem lhs_row (i : S50000x128.Idx) (c : dot_S50000x128_S128x128_S50000x128_1_0_0_1_n_n.contr.Idx) : (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl

theorem lhs_col (i : S50000x128.Idx) (c : dot_S50000x128_S128x128_S50000x128_1_0_0_1_n_n.contr.Idx) : (dot_S50000x128_S128x128_S50000x128_1_0_0_1_n_n.lhsIdx i c 1).val = (c ⟨0, by decide⟩).val :=
  dot_S50000x128_S128x128_S50000x128_1_0_0_1_n_n.lhsIdx_val_of_single rfl i c

theorem rhs_row (i : S50000x128.Idx) (c : dot_S50000x128_S128x128_S50000x128_1_0_0_1_n_n.contr.Idx) : (dot_S50000x128_S128x128_S50000x128_1_0_0_1_n_n.rhsIdx i c 0).val = (c ⟨0, by decide⟩).val :=
  dot_S50000x128_S128x128_S50000x128_1_0_0_1_n_n.rhsIdx_val_of_single rfl i c

theorem rhs_col (i : S50000x128.Idx) (c : dot_S50000x128_S128x128_S50000x128_1_0_0_1_n_n.contr.Idx) : (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

theorem lhs_at (p : Fin 50000) (q k : Fin 128) :
    dot_S50000x128_S128x128_S50000x128_1_0_0_1_n_n.lhsIdx (ix2 p q) ((contrEquiv1 dot_S50000x128_S128x128_S50000x128_1_0_0_1_n_n 128 rfl rfl).symm k) = ix2 p k := by
  have hk := contrEquiv1_symm_val dot_S50000x128_S128x128_S50000x128_1_0_0_1_n_n 128 rfl rfl k
  funext a
  refine Fin.ext ?_
  match a with
  | ⟨0, _⟩ => exact lhs_row _ _
  | ⟨1, _⟩ => exact (lhs_col _ _).trans hk

theorem rhs_at (p : Fin 50000) (q k : Fin 128) :
    dot_S50000x128_S128x128_S50000x128_1_0_0_1_n_n.rhsIdx (ix2 p q) ((contrEquiv1 dot_S50000x128_S128x128_S50000x128_1_0_0_1_n_n 128 rfl rfl).symm k) = ix2 k q := by
  have hk := contrEquiv1_symm_val dot_S50000x128_S128x128_S50000x128_1_0_0_1_n_n 128 rfl rfl k
  funext a
  refine Fin.ext ?_
  match a with
  | ⟨0, _⟩ => exact (rhs_row _ _).trans hk
  | ⟨1, _⟩ => exact rhs_col _ _

/-- The host's product of whole arrays is the network's `mm`. -/
theorem product_eq (x : FVec Ideal S50000x128 .f32) (w : FVec Ideal S128x128 .f32) :
    Host.dotGeneral (F := Ideal) dot_S50000x128_S128x128_S50000x128_1_0_0_1_n_n none x w = Cert.GCN.mm x w := by
  funext i
  obtain ⟨p, q, rfl⟩ : ∃ (p : Fin 50000) (q : Fin 128), i = ix2 p q := ⟨i 0, i 1, eq_ix2 i⟩
  show Host.dotGeneral (F := Ideal) dot_S50000x128_S128x128_S50000x128_1_0_0_1_n_n none x w (ix2 p q) = ∑ k : Fin 128, x (ix2 p k) * w (ix2 k q)
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  rw [lhs_at p q k, rhs_at p q k]

/-- The reference's result term is the two-layer network of the argument arrays. -/
theorem result_eq (m : (ℓ : Loc nD τ sig) → Buf (Elt Ideal) ℓ) (c : Dev nD) :
    Cert.ReferenceIdeal.ValueP.res_main_v87 (F := Ideal) m c
      = Cert.GCN.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v87
  simp only [product_eq]
  rfl

end Cert.ReferenceIdeal.RefValue

end
-- ==== Proof.lean ====
/-
  A two-layer graph convolution: the kernel program against its reference, over the extended reals.

  Both programs compute `agg (relu (agg (x · W1) ei b1) · W2) ei b2` (Proof/Spec.lean).  The kernel program takes each
  matrix product in ten row blocks of 5000 nodes on the matrix unit, rounding both operands to a shorter float format
  first; over the extended reals that rounding is the identity, a block of the product is the product's rows, and
  the ten blocks tile the array (Proof/KernelBlock.lean, Proof/KernelRegion0.lean, Proof/KernelRegion1.lean).  The
  reference takes each product whole.  Everything else — the lists of sources and destinations with the self loops, the
  degrees, the weights, gathering, scattering, the biases, the positive part — is the same host operations in both,
  the kernel program computing the lists and weights once and the reference once per layer from the same edge list
  (Proof/KernelHost.lean, Proof/KernelResult.lean, Proof/RefValue.lean).  No algebraic law beyond reading a product
  as its sum is used, so the precondition is never opened.  The idealization rewrote no operation, so `preserves`
  is trivial.
-/
import proofs.«174491_j80324478369999_1_alg».proof.Defs
import proofs.«174491_j80324478369999_1_alg».proof.Proof.Gen.Kernel
import proofs.«174491_j80324478369999_1_alg».proof.Proof.Gen.Kernel.Frame
import proofs.«174491_j80324478369999_1_alg».proof.Proof.Gen.KernelIdeal
import proofs.«174491_j80324478369999_1_alg».proof.Proof.Gen.KernelIdeal.Frame
import proofs.«174491_j80324478369999_1_alg».proof.Proof.Gen.ReferenceIdeal
import proofs.«174491_j80324478369999_1_alg».proof.Proof.Gen.Pre_finite_inputs
import proofs.«174491_j80324478369999_1_alg».proof.Proof.KernelRun
import proofs.«174491_j80324478369999_1_alg».proof.Proof.KernelResult
import proofs.«174491_j80324478369999_1_alg».proof.Proof.RefRun
import proofs.«174491_j80324478369999_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the two-layer network of the argument arrays in their result: the kernel program by
    following its buffers from segment to segment, the reference by reading its one composed term; the argument
    arrays agree, so the two results are equal, entry by entry. -/
theorem algebraic : Cert.algebraic_KernelIdeal_ReferenceIdeal := by
  intro m ρ m' ρ' _ hagree
  refine ⟨fun c => Cert.GCN.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result_eq m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
